-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x200000 : Shape := ⟨2, ![2, 200000]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x200000 32) (main_arg2 : IVec S2x500000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x200000 : Shape := ⟨2, ![2, 200000]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S100000 : Shape := ⟨1, ![100000]⟩
abbrev S500000x1 : Shape := ⟨2, ![500000, 1]⟩
abbrev S1x128 : Shape := ⟨2, ![1, 128]⟩
abbrev S5000x128 : Shape := ⟨2, ![5000, 128]⟩
abbrev S500000x128 : Shape := ⟨2, ![500000, 128]⟩
abbrev S100000x1 : Shape := ⟨2, ![100000, 1]⟩
abbrev S100000x64 : Shape := ⟨2, ![100000, 64]⟩
abbrev S5000x64 : Shape := ⟨2, ![5000, 64]⟩
abbrev S500000x64 : Shape := ⟨2, ![500000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 127
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x200000, .i32⟩
  | .hbm, ⟨2, _⟩ => ⟨S2x500000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x500000, .i32⟩
  | .hbm, ⟨10, _⟩ => ⟨S500000, .i32⟩
  | .hbm, ⟨11, _⟩ => ⟨S1x500000, .i32⟩
  | .hbm, ⟨12, _⟩ => ⟨S500000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S_, .f32⟩
  | .hbm, ⟨24, _⟩ => ⟨S500000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000, .f32⟩
  | .hbm, ⟨50, _⟩ => ⟨S500000, .f32⟩
  | .hbm, ⟨51, _⟩ => ⟨S100000, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S500000, .i32⟩
  | .hbm, ⟨57, _⟩ => ⟨S500000, .i1⟩
  | .hbm, ⟨58, _⟩ => ⟨S_, .i32⟩
  | .hbm, ⟨59, _⟩ => ⟨S500000, .i32⟩
  | .hbm, ⟨60, _⟩ => ⟨S500000, .i32⟩
  | .hbm, ⟨61, _⟩ => ⟨S500000, .i32⟩
  | .hbm, ⟨62, _⟩ => ⟨S500000x1, .i32⟩
  | .hbm, ⟨63, _⟩ => ⟨S500000x128, .f32⟩
  | .hbm, ⟨64, _⟩ => ⟨S500000x1, .f32⟩
  | .hbm, ⟨65, _⟩ => ⟨S500000x128, .f32⟩
  | .hbm, ⟨66, _⟩ => ⟨S500000x128, .f32⟩
  | .hbm, ⟨67, _⟩ => ⟨S_, .f32⟩
  | .hbm, ⟨68, _⟩ => ⟨S100000x128, .f32⟩
  | .hbm, ⟨69, _⟩ => ⟨S500000x1, .i32⟩
  | .hbm, ⟨70, _⟩ => ⟨S100000x128, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x64, .f32⟩
  | .hbm, ⟨79, _⟩ => ⟨S_, .i32⟩
  | .hbm, ⟨80, _⟩ => ⟨S500000, .i32⟩
  | .hbm, ⟨81, _⟩ => ⟨S500000, .i1⟩
  | .hbm, ⟨82, _⟩ => ⟨S_, .i32⟩
  | .hbm, ⟨83, _⟩ => ⟨S500000, .i32⟩
  | .hbm, ⟨84, _⟩ => ⟨S500000, .i32⟩
  | .hbm, ⟨85, _⟩ => ⟨S500000, .i32⟩
  | .hbm, ⟨86, _⟩ => ⟨S500000x1, .i32⟩
  | .hbm, ⟨87, _⟩ => ⟨S500000x64, .f32⟩
  | .hbm, ⟨88, _⟩ => ⟨S500000x1, .f32⟩
  | .hbm, ⟨89, _⟩ => ⟨S500000x64, .f32⟩
  | .hbm, ⟨90, _⟩ => ⟨S500000x64, .f32⟩
  | .hbm, ⟨91, _⟩ => ⟨S_, .f32⟩
  | .hbm, ⟨92, _⟩ => ⟨S100000x64, .f32⟩
  | .hbm, ⟨93, _⟩ => ⟨S500000x1, .i32⟩
  | .hbm, ⟨94, _⟩ => ⟨S100000x64, .f32⟩
  | .hbm, ⟨95, _⟩ => ⟨S100000x1, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | .hbm, ⟨102, _⟩ => ⟨S1x200000, .i32⟩
  | .hbm, ⟨103, _⟩ => ⟨S200000, .i32⟩
  | .hbm, ⟨104, _⟩ => ⟨S_, .i32⟩
  | .hbm, ⟨105, _⟩ => ⟨S200000, .i32⟩
  | .hbm, ⟨106, _⟩ => ⟨S200000, .i1⟩
  | .hbm, ⟨107, _⟩ => ⟨S_, .i32⟩
  | .hbm, ⟨108, _⟩ => ⟨S200000, .i32⟩
  | .hbm, ⟨109, _⟩ => ⟨S200000, .i32⟩
  | .hbm, ⟨110, _⟩ => ⟨S200000, .i32⟩
  | .hbm, ⟨111, _⟩ => ⟨S200000x1, .i32⟩
  | .hbm, ⟨112, _⟩ => ⟨S200000x64, .f32⟩
  | .hbm, ⟨113, _⟩ => ⟨S1x200000, .i32⟩
  | .hbm, ⟨114, _⟩ => ⟨S200000, .i32⟩
  | .hbm, ⟨115, _⟩ => ⟨S_, .i32⟩
  | .hbm, ⟨116, _⟩ => ⟨S200000, .i32⟩
  | .hbm, ⟨117, _⟩ => ⟨S200000, .i1⟩
  | .hbm, ⟨118, _⟩ => ⟨S_, .i32⟩
  | .hbm, ⟨119, _⟩ => ⟨S200000, .i32⟩
  | .hbm, ⟨120, _⟩ => ⟨S200000, .i32⟩
  | .hbm, ⟨121, _⟩ => ⟨S200000, .i32⟩
  | .hbm, ⟨122, _⟩ => ⟨S200000x1, .i32⟩
  | .hbm, ⟨123, _⟩ => ⟨S200000x64, .f32⟩
  | .hbm, ⟨124, _⟩ => ⟨S200000x64, .f32⟩
  | .hbm, ⟨125, _⟩ => ⟨S_, .f32⟩
  | .hbm, ⟨126, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_14 : Ref sig .tc := ⟨.hbm, 104, rfl⟩
abbrev main_v79 : Ref sig .tc := ⟨.hbm, 105, rfl⟩
abbrev main_v80 : Ref sig .tc := ⟨.hbm, 106, rfl⟩
abbrev main_c_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_16 : Ref sig .tc := ⟨.hbm, 115, rfl⟩
abbrev main_v88 : Ref sig .tc := ⟨.hbm, 116, rfl⟩
abbrev main_v89 : Ref sig .tc := ⟨.hbm, 117, rfl⟩
abbrev main_c_17 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_18 : Ref sig .tc := ⟨.hbm, 125, rfl⟩
abbrev main_v96 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S100000 : S_.BroadcastsInDim S100000 (![] : Fin 0 → Fin S100000.rank)
  bcast_S_S500000 : S_.BroadcastsInDim S500000 (![] : Fin 0 → Fin S500000.rank)
  bcast_S500000_S500000x1_0 : S500000.BroadcastsInDim S500000x1 (![0] : Fin 1 → Fin S500000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S500000x1_S500000x64_0_1 : S500000x1.BroadcastsInDim S500000x64 (![0, 1] : Fin 2 → Fin S500000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S5000x128_S128x64_S5000x64_1_0_0_1_n_n_wf : DotDims.WF S5000x128 S128x64 S5000x64 [1] [0] [0] [1] [] []
  gather_S100000x64_S500000x1_S500000x64_1_0_n_n_0_1_164_wf : GatherDims.WF S100000x64 S500000x1 S500000x64 [1] [0] [] [0] [] 1 ![1, 64]
  scatter_S100000x64_S500000x1_S500000x64_1_0_0_1_wf : ScatterDims.WF S100000x64 S500000x1 S500000x64 [1] [0] [0] 1
  gather_S100000x64_S200000x1_S200000x64_1_0_n_n_0_1_164_wf : GatherDims.WF S100000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x200000 : Shape := ⟨2, ![2, 200000]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S1x128 : Shape := ⟨2, ![1, 128]⟩
abbrev S_ : Shape := ⟨0, ![]⟩
abbrev S100000 : Shape := ⟨1, ![100000]⟩
abbrev S500000x1 : Shape := ⟨2, ![500000, 1]⟩
abbrev S500000x128 : Shape := ⟨2, ![500000, 128]⟩
abbrev S100000x1 : Shape := ⟨2, ![100000, 1]⟩
abbrev S100000x64 : Shape := ⟨2, ![100000, 64]⟩
abbrev S500000x64 : Shape := ⟨2, ![500000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 171
  | .vmem => 0
  | .smem => 0
  | _ => 0

abbrev hbmTy0_0 (i : Nat) : BufTy := match i % 128 with
  | 0 => ⟨S100000x128, .f32⟩
  | 1 => ⟨S2x200000, .i32⟩
  | 2 => ⟨S2x500000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1x500000, .i32⟩
  | 10 => ⟨S500000, .i32⟩
  | 11 => ⟨S1x500000, .i32⟩
  | 12 => ⟨S500000, .i32⟩
  | 13 => ⟨S100000x128, .f32⟩
  | 14 => ⟨S1x128, .f32⟩
  | 15 => ⟨S100000x128, .f32⟩
  | 16 => ⟨S100000x128, .f32⟩
  | 17 => ⟨S100000x128, .f32⟩
  | 18 => ⟨S_, .f32⟩
  | 19 => ⟨S100000, .f32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S_, .f32⟩
  | 29 => ⟨S500000, .f32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000, .f32⟩
  | 55 => ⟨S500000, .f32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x128, .f32⟩
  | 65 => ⟨S500000x1, .f32⟩
  | 66 => ⟨S500000x128, .f32⟩
  | 67 => ⟨S500000x128, .f32⟩
  | 68 => ⟨S_, .f32⟩
  | 69 => ⟨S100000x128, .f32⟩
  | 70 => ⟨S500000x1, .i32⟩
  | 71 => ⟨S100000x128, .f32⟩
  | 72 => ⟨S100000, .f32⟩
  | 73 => ⟨S100000x1, .f32⟩
  | 74 => ⟨S100000x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x64, .f32⟩
  | 84 => ⟨S_, .f32⟩
  | 85 => ⟨S100000, .f32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S_, .f32⟩
  | 95 => ⟨S500000, .f32⟩
  | 96 => ⟨S100000, .f32⟩
  | 97 => ⟨S_, .f32⟩
  | 98 => ⟨S100000, .f32⟩
  | 99 => ⟨S100000, .f32⟩
  | 100 => ⟨S_, .f32⟩
  | 101 => ⟨S100000, .f32⟩
  | 102 => ⟨S100000, .f32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000, .f32⟩
  | 112 => ⟨S_, .i32⟩
  | 113 => ⟨S500000, .i32⟩
  | 114 => ⟨S500000, .i1⟩
  | 115 => ⟨S_, .i32⟩
  | 116 => ⟨S500000, .i32⟩
  | 117 => ⟨S500000, .i32⟩
  | 118 => ⟨S500000, .i32⟩
  | 119 => ⟨S500000x1, .i32⟩
  | 120 => ⟨S500000, .f32⟩
  | 121 => ⟨S500000, .f32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S100000x128, .f32⟩

abbrev hbmTy0_1 (i : Nat) : BufTy := match i % 128 with
  | 0 => ⟨S500000, .i32⟩
  | 1 => ⟨S500000x1, .i32⟩
  | 2 => ⟨S500000x64, .f32⟩
  | 3 => ⟨S500000x1, .f32⟩
  | 4 => ⟨S500000x64, .f32⟩
  | 5 => ⟨S500000x64, .f32⟩
  | 6 => ⟨S_, .f32⟩
  | 7 => ⟨S100000x64, .f32⟩
  | 8 => ⟨S500000x1, .i32⟩
  | 9 => ⟨S100000x64, .f32⟩
  | 10 => ⟨S100000, .f32⟩
  | 11 => ⟨S100000x1, .f32⟩
  | 12 => ⟨S100000x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S1x200000, .i32⟩
  | 19 => ⟨S200000, .i32⟩
  | 20 => ⟨S_, .i32⟩
  | 21 => ⟨S200000, .i32⟩
  | 22 => ⟨S200000, .i1⟩
  | 23 => ⟨S_, .i32⟩
  | 24 => ⟨S200000, .i32⟩
  | 25 => ⟨S200000, .i32⟩
  | 26 => ⟨S200000, .i32⟩
  | 27 => ⟨S200000x1, .i32⟩
  | 28 => ⟨S200000x64, .f32⟩
  | 29 => ⟨S1x200000, .i32⟩
  | 30 => ⟨S200000, .i32⟩
  | 31 => ⟨S_, .i32⟩
  | 32 => ⟨S200000, .i32⟩
  | 33 => ⟨S200000, .i1⟩
  | 34 => ⟨S_, .i32⟩
  | 35 => ⟨S200000, .i32⟩
  | 36 => ⟨S200000, .i32⟩
  | 37 => ⟨S200000, .i32⟩
  | 38 => ⟨S200000x1, .i32⟩
  | 39 => ⟨S200000x64, .f32⟩
  | 40 => ⟨S200000x64, .f32⟩
  | 41 => ⟨S_, .f32⟩
  | 42 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call0_cst : Ref sig .tc := ⟨.hbm, 80, rfl⟩
abbrev main_call0_v0 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_cst_16 : Ref sig .tc := ⟨.hbm, 100, rfl⟩
abbrev main_v71 : Ref sig .tc := ⟨.hbm, 101, rfl⟩
abbrev main_v72 : Ref sig .tc := ⟨.hbm, 102, rfl⟩
abbrev main_c_17 : Ref sig .tc := ⟨.hbm, 103, rfl⟩
abbrev main_v73 : Ref sig .tc := ⟨.hbm, 104, rfl⟩
abbrev main_v74 : Ref sig .tc := ⟨.hbm, 105, rfl⟩
abbrev main_c_18 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_19 : Ref sig .tc := ⟨.hbm, 112, rfl⟩
abbrev main_v80 : Ref sig .tc := ⟨.hbm, 113, rfl⟩
abbrev main_v81 : Ref sig .tc := ⟨.hbm, 114, rfl⟩
abbrev main_c_20 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_21 : Ref sig .tc := ⟨.hbm, 122, rfl⟩
abbrev main_v88 : Ref sig .tc := ⟨.hbm, 123, rfl⟩
abbrev main_v89 : Ref sig .tc := ⟨.hbm, 124, rfl⟩
abbrev main_c_22 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_23 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c_24 : Ref sig .tc := ⟨.hbm, 148, rfl⟩
abbrev main_v111 : Ref sig .tc := ⟨.hbm, 149, rfl⟩
abbrev main_v112 : Ref sig .tc := ⟨.hbm, 150, rfl⟩
abbrev main_c_25 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_c_26 : Ref sig .tc := ⟨.hbm, 159, rfl⟩
abbrev main_v120 : Ref sig .tc := ⟨.hbm, 160, rfl⟩
abbrev main_v121 : Ref sig .tc := ⟨.hbm, 161, rfl⟩
abbrev main_c_27 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_28 : Ref sig .tc := ⟨.hbm, 169, rfl⟩
abbrev main_v128 : Ref sig .tc := ⟨.hbm, 170, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000 : S_.BroadcastsInDim S100000 (![] : Fin 0 → Fin S100000.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S500000x1_S500000x64_0_1 : S500000x1.BroadcastsInDim S500000x64 (![0, 1] : Fin 2 → Fin S500000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  dot_S100000x128_S128x128_S100000x128_1_0_0_1_n_n_wf : DotDims.WF S100000x128 S128x128 S100000x128 [1] [0] [0] [1] [] []
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S100000x128_S128x64_S100000x64_1_0_0_1_n_n_wf : DotDims.WF S100000x128 S128x64 S100000x64 [1] [0] [0] [1] [] []
  gather_S100000x64_S500000x1_S500000x64_1_0_n_n_0_1_164_wf : GatherDims.WF S100000x64 S500000x1 S500000x64 [1] [0] [] [0] [] 1 ![1, 64]
  scatter_S100000x64_S500000x1_S500000x64_1_0_0_1_wf : ScatterDims.WF S100000x64 S500000x1 S500000x64 [1] [0] [0] 1
  gather_S100000x64_S200000x1_S200000x64_1_0_n_n_0_1_164_wf : GatherDims.WF S100000x64 S200000x1 S200000x64 [1] [0] [] [0] [] 1 ![1, 64]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

class Facts : Prop extends Facts₀ where

variable [Facts]
-- ==== Proof.KernelRun.lean ====
/-
  The idealized kernel's whole run with the returned array named.

  The program is six stretches in a row: host operations, the row-tiled dense layer, the row-tiled product, host operations
  (the first graph convolution's aggregation), the row-tiled rectified product, host operations (the second aggregation and the
  edge scores). The buffer contents at each boundary are a fold from the launch memory: a host stretch applies its operations,
  a tiled region replaces its output array by what its twenty row tiles wrote back and leaves every other buffer alone.
  Every weakly fair execution terminates without a fault, the nine argument arrays end as launched, and the array of edge
  scores ends at the last boundary's contents of its buffer. Nothing here opens those contents; the sibling modules read them.
-/
import proofs.«176468_j46153718563498_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting; the edge
    scores end at the last boundary's contents of their buffer and the nine arguments end as launched. -/
theorem run_scores : θ_run defs (onTc (τ := τ) (main (F := F))) ⟨m, fun _ => 0, ρ⟩ (fun r => ∀ c : Dev nD,
      r.2.mem ((c.tc : Thread nD τ).loc main_v96) = W6 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v96 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Whole

end
-- ==== Proof.Spec.lean ====
/-
  The network both programs compute, as one function of the nine argument arrays.

  A node array x of 100000 rows, positive edges (src_e, tgt_e), e < 500000, prediction edges (u_e, v_e), e < 200000.
  With deg_i = 1 + #{e : tgt_e = i} and d_i = deg_i^(-1/2), one graph convolution of an array Y with bias b is
      conv Y b  =  (rows of Y·d_src·d_tgt summed into their target rows)  +  Y·d² (row by row)  +  b (along every row),
  and the network is
      h0 = x·W_init + b_init,   h1 = conv (h0·W1) b1,   h2 = conv (max(h1, 0)·W2) b2,   score_e = Σ_j h2[u_e, j]·h2[v_e, j].
  A negative row number counts from the end (add 100000), the gathers clamp, the scatters sum. Every piece below is the host's own operation, so nothing here is evaluated: the two programs are compared
  by showing each computes this one term.
-/
import proofs.«176468_j46153718563498_1_alg».proof.Proof.Gen.ReferenceIdeal

noncomputable section

namespace Cert.Gcn

open Idealize.ShloMosaic Cert.ReferenceIdeal Cert.ReferenceIdeal.Gen

variable {F : FTy → Type} [FloatOps F]

/-- Row 0 of the positive edges: each edge's source node. -/
def srcRow (pe : (⟨S2x500000, .i32⟩ : BufTy).Contents (Elt F)) : (⟨S500000, .i32⟩ : BufTy).Contents (Elt F) :=
  shapeCast _ (extractStridedSlice S1x500000 ![0, 0] pe slices_S2x500000_S1x500000_0_0) shapeCasts_S1x500000_S500000

/-- Row 1 of the positive edges: each edge's target node. -/
def tgtRow (pe : (⟨S2x500000, .i32⟩ : BufTy).Contents (Elt F)) : (⟨S500000, .i32⟩ : BufTy).Contents (Elt F) :=
  shapeCast _ (extractStridedSlice S1x500000 ![1, 0] pe slices_S2x500000_S1x500000_1_0) shapeCasts_S1x500000_S500000

/-- Node numbers as a column of row indices, a negative number counting from the end. -/
def wrapNodes (ix : (⟨S500000, .i32⟩ : BufTy).Contents (Elt F)) : (⟨S500000x1, .i32⟩ : BufTy).Contents (Elt F) :=
  broadcastInDim S500000x1 ![0] bcast_S500000_S500000x1_0
    (select (cmpi .slt ix (broadcastInDim S500000 ![] bcast_S_S500000 (constantI S_ 32 0#32)))
      (addi ix (broadcastInDim S500000 ![] bcast_S_S500000 (constantI S_ 32 100000#32))) ix)

/-- d = (1 + in-degree)^(-1/2), node by node. -/
def invSqrtDeg (pe : (⟨S2x500000, .i32⟩ : BufTy).Contents (Elt F)) : (⟨S100000, .f32⟩ : BufTy).Contents (Elt F) :=
  Host.powf
    (addf
      (Host.scatterAdd scatter_S100000_S500000x1_S500000_n_0_0_1
        (broadcastInDim S100000 ![] bcast_S_S100000 (constant S_ .f32 0x00000000#32))
        (wrapNodes (tgtRow pe))
        (broadcastInDim S500000 ![] bcast_S_S500000 (constant S_ .f32 0x3F800000#32)))
      (broadcastInDim S100000 ![] bcast_S_S100000 (constant S_ .f32 0x3F800000#32)))
    (broadcastInDim S100000 ![] bcast_S_S100000 (constant S_ .f32 0xBF000000#32))

/-- The edge weights d_src · d_tgt. -/
def edgeWeight (pe : (⟨S2x500000, .i32⟩ : BufTy).Contents (Elt F)) : (⟨S500000, .f32⟩ : BufTy).Contents (Elt F) :=
  mulf (Host.gather gather_S100000_S500000x1_S500000_n_0_n_n_0_1_1 (invSqrtDeg pe) (wrapNodes (srcRow pe)))
       (Host.gather gather_S100000_S500000x1_S500000_n_0_n_n_0_1_1 (invSqrtDeg pe) (wrapNodes (tgtRow pe)))

/-- The self-loop weights d². -/
def selfWeight (pe : (⟨S2x500000, .i32⟩ : BufTy).Contents (Elt F)) : (⟨S100000, .f32⟩ : BufTy).Contents (Elt F) :=
  mulf (invSqrtDeg pe) (invSqrtDeg pe)

/-- One graph convolution of a 128-wide array, given the edge rows and the two weight vectors. -/
def conv128 (y : (⟨S100000x128, .f32⟩ : BufTy).Contents (Elt F))
    (src tgt : (⟨S500000, .i32⟩ : BufTy).Contents (Elt F)) (we : (⟨S500000, .f32⟩ : BufTy).Contents (Elt F))
    (ws : (⟨S100000, .f32⟩ : BufTy).Contents (Elt F)) (b : (⟨S128, .f32⟩ : BufTy).Contents (Elt F)) :
    (⟨S100000x128, .f32⟩ : BufTy).Contents (Elt F) :=
  addf
    (addf
      (Host.scatterAdd scatter_S100000x128_S500000x1_S500000x128_1_0_0_1
        (broadcastInDim S100000x128 ![] bcast_S_S100000x128 (constant S_ .f32 0x00000000#32))
        (broadcastInDim S500000x1 ![0] bcast_S500000_S500000x1_0 tgt)
        (mulf (Host.gather gather_S100000x128_S500000x1_S500000x128_1_0_n_n_0_1_1128 y (wrapNodes src))
          (broadcastInDim S500000x128 ![0, 1] bcast_S500000x1_S500000x128_0_1
            (broadcastInDim S500000x1 ![0] bcast_S500000_S500000x1_0 we))))
      (mulf y
        (broadcastInDim S100000x128 ![0, 1] bcast_S100000x1_S100000x128_0_1
          (broadcastInDim S100000x1 ![0] bcast_S100000_S100000x1_0 ws))))
    (broadcastInDim S100000x128 ![0, 1] bcast_S1x128_S100000x128_0_1 (broadcastInDim S1x128 ![1] bcast_S128_S1x128_1 b))

/-- The same convolution of a 64-wide array. -/
def conv64 (y : (⟨S100000x64, .f32⟩ : BufTy).Contents (Elt F))
    (src tgt : (⟨S500000, .i32⟩ : BufTy).Contents (Elt F)) (we : (⟨S500000, .f32⟩ : BufTy).Contents (Elt F))
    (ws : (⟨S100000, .f32⟩ : BufTy).Contents (Elt F)) (b : (⟨S64, .f32⟩ : BufTy).Contents (Elt F)) :
    (⟨S100000x64, .f32⟩ : BufTy).Contents (Elt F) :=
  addf
    (addf
      (Host.scatterAdd scatter_S100000x64_S500000x1_S500000x64_1_0_0_1
        (broadcastInDim S100000x64 ![] bcast_S_S100000x64 (constant S_ .f32 0x00000000#32))
        (broadcastInDim S500000x1 ![0] bcast_S500000_S500000x1_0 tgt)
        (mulf (Host.gather gather_S100000x64_S500000x1_S500000x64_1_0_n_n_0_1_164 y (wrapNodes src))
          (broadcastInDim S500000x64 ![0, 1] bcast_S500000x1_S500000x64_0_1
            (broadcastInDim S500000x1 ![0] bcast_S500000_S500000x1_0 we))))
      (mulf y
        (broadcastInDim S100000x64 ![0, 1] bcast_S100000x1_S100000x64_0_1
          (broadcastInDim S100000x1 ![0] bcast_S100000_S100000x1_0 ws))))
    (broadcastInDim S100000x64 ![0, 1] bcast_S1x64_S100000x64_0_1 (broadcastInDim S1x64 ![1] bcast_S64_S1x64_1 b))

/-- One row of the prediction edges as a column of row indices, a negative number counting from the end. -/
def endpoint (r : Fin 2 → Nat) (hs : S2x200000.Slices r S1x200000)
    (e : (⟨S2x200000, .i32⟩ : BufTy).Contents (Elt F)) : (⟨S200000x1, .i32⟩ : BufTy).Contents (Elt F) :=
  broadcastInDim S200000x1 ![0] bcast_S200000_S200000x1_0
    (select
      (cmpi .slt (shapeCast _ (extractStridedSlice S1x200000 r e hs) shapeCasts_S1x200000_S200000)
        (broadcastInDim S200000 ![] bcast_S_S200000 (constantI S_ 32 0#32)))
      (addi (shapeCast _ (extractStridedSlice S1x200000 r e hs) shapeCasts_S1x200000_S200000)
        (broadcastInDim S200000 ![] bcast_S_S200000 (constantI S_ 32 100000#32)))
      (shapeCast _ (extractStridedSlice S1x200000 r e hs) shapeCasts_S1x200000_S200000))

/-- The score of every prediction edge: the inner product of its two endpoints' rows. -/
def scores (h : (⟨S100000x64, .f32⟩ : BufTy).Contents (Elt F)) (e : (⟨S2x200000, .i32⟩ : BufTy).Contents (Elt F)) :
    (⟨S200000, .f32⟩ : BufTy).Contents (Elt F) :=
  Host.reduceAdd
    (mulf
      (Host.gather gather_S100000x64_S200000x1_S200000x64_1_0_n_n_0_1_164 h (endpoint ![0, 0] slices_S2x200000_S1x200000_0_0 e))
      (Host.gather gather_S100000x64_S200000x1_S200000x64_1_0_n_n_0_1_164 h (endpoint ![1, 0] slices_S2x200000_S1x200000_1_0 e)))
    (constant S_ .f32 0x00000000#32) reducesTo_S200000x64_S200000_d1 h_S_

/-- The dense layer x·W + b (the bias laid along every row). -/
def dense (x : (⟨S100000x128, .f32⟩ : BufTy).Contents (Elt F)) (w : (⟨S128x128, .f32⟩ : BufTy).Contents (Elt F))
    (b : (⟨S128, .f32⟩ : BufTy).Contents (Elt F)) : (⟨S100000x128, .f32⟩ : BufTy).Contents (Elt F) :=
  addf (Host.dotGeneral dot_S100000x128_S128x128_S100000x128_1_0_0_1_n_n none x w)
    (broadcastInDim S100000x128 ![0, 1] bcast_S1x128_S100000x128_0_1 (broadcastInDim S1x128 ![1] bcast_S128_S1x128_1 b))

/-- max(·, 0), entry by entry. -/
def relu (y : (⟨S100000x128, .f32⟩ : BufTy).Contents (Elt F)) : (⟨S100000x128, .f32⟩ : BufTy).Contents (Elt F) :=
  maximumf y (broadcastInDim S100000x128 ![] bcast_S_S100000x128 (constant S_ .f32 0x00000000#32))

/-- The first hidden layer h1 from the product h0·W1. -/
def hidden1 (xw : (⟨S100000x128, .f32⟩ : BufTy).Contents (Elt F)) (pe : (⟨S2x500000, .i32⟩ : BufTy).Contents (Elt F))
    (b : (⟨S128, .f32⟩ : BufTy).Contents (Elt F)) : (⟨S100000x128, .f32⟩ : BufTy).Contents (Elt F) :=
  conv128 xw (srcRow pe) (tgtRow pe) (edgeWeight pe) (selfWeight pe) b

/-- The scores from the product max(h1, 0)·W2. -/
def scoresOf (xw : (⟨S100000x64, .f32⟩ : BufTy).Contents (Elt F)) (pe : (⟨S2x500000, .i32⟩ : BufTy).Contents (Elt F))
    (b : (⟨S64, .f32⟩ : BufTy).Contents (Elt F)) (e : (⟨S2x200000, .i32⟩ : BufTy).Contents (Elt F)) :
    (⟨S200000, .f32⟩ : BufTy).Contents (Elt F) :=
  scores (conv64 xw (srcRow pe) (tgtRow pe) (edgeWeight pe) (selfWeight pe) b) e

/-- The whole network. -/
def network (x : (⟨S100000x128, .f32⟩ : BufTy).Contents (Elt F)) (e : (⟨S2x200000, .i32⟩ : BufTy).Contents (Elt F))
    (pe : (⟨S2x500000, .i32⟩ : BufTy).Contents (Elt F))
    (wInit : (⟨S128x128, .f32⟩ : BufTy).Contents (Elt F)) (bInit : (⟨S128, .f32⟩ : BufTy).Contents (Elt F))
    (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    (⟨S200000, .f32⟩ : BufTy).Contents (Elt F) :=
  scoresOf
    (Host.dotGeneral dot_S100000x128_S128x64_S100000x64_1_0_0_1_n_n none
      (relu (hidden1 (Host.dotGeneral dot_S100000x128_S128x128_S100000x128_1_0_0_1_n_n none (dense x wInit bInit) w1) pe b1)) w2)
    pe b2 e

end Cert.Gcn

end
-- ==== Proof.KernelBetween.lean ====
/-
  The kernel's program between its three tiled regions: what each host stretch computes, and what survives each boundary.

  The program's buffer contents are followed through six boundaries. A tiled region rewrites only its own output array; a host
  stretch rewrites only the buffers its operations define. So the edge rows, the two weight vectors and the arguments, all
  computed or given before the first region, are still there when the later stretches read them, and:
    * the first stretch leaves the source and target rows, the edge weights d_src·d_tgt, the self weights d², and the first
      bias as a one-row matrix;
    * the second stretch turns the product h0·W1 into the first hidden layer (one graph convolution);
    * the last stretch turns the product max(h1,0)·W2 into the edge scores (a second convolution, then the inner products).
  Each is read off the stretch's operations in order; the pieces are the network's own (the sibling module that states them).
-/
import proofs.«176468_j46153718563498_1_alg».proof.Proof.Gen.KernelIdeal.Frame
import proofs.«176468_j46153718563498_1_alg».proof.Proof.Spec

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- Closes "no operation of this host stretch writes that buffer": the stretch's result buffers are listed, and each is
    another reference. -/
local macro "no_writer" : tactic =>
  `(tactic| (
    refine List.forall_iff_forall_mem.mp ?_
    simp only [hostOps0, hostOps2, hostOps3, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-! ## What survives the boundaries -/

/-- A buffer that is no array of the first two regions is, after them, as the first stretch left it. -/
theorem after_two_regions (b : Ref sig .tc) (h0 : ∀ w, Pipeline.arrRef spec0 w ≠ b) (h1 : ∀ w, Pipeline.arrRef spec1 w ≠ b) :
    W3 m ρ c (Proc.devRef .tc b) = W1 m ρ c (Proc.devRef .tc b) :=
  (W3_of_ne m ρ c b h1).trans (W2_of_ne m ρ c b h0)

/-- … and if the second stretch does not write it and it is no array of the third region, it is still so when the last
    stretch starts. -/
theorem after_three_regions (b : Ref sig .tc) (h0 : ∀ w, Pipeline.arrRef spec0 w ≠ b) (h1 : ∀ w, Pipeline.arrRef spec1 w ≠ b)
    (h2 : ∀ w, Pipeline.arrRef spec2 w ≠ b)
    (hw : ∀ op ∈ (hostOps2 : List (HloOp τ sig (Elt F))), Proc.devRef .tc b ∉ op.writes) :
    W5 m ρ c (Proc.devRef .tc b) = W1 m ρ c (Proc.devRef .tc b) :=
  (W5_of_ne m ρ c b h2).trans ((StableHlo.after_of_forall_not_mem _ _ hw).trans (after_two_regions m ρ c b h0 h1))

/-- An argument the first stretch does not write is, after it, as launched. -/
theorem launched (b : Ref sig .tc)
    (hw : ∀ op ∈ (hostOps0 : List (HloOp τ sig (Elt F))), Proc.devRef .tc b ∉ op.writes) :
    W1 m ρ c (Proc.devRef .tc b) = m ((c : Thread nD τ).loc b) :=
  StableHlo.after_of_forall_not_mem _ _ hw

theorem src_at_W3 : W3 m ρ c (Proc.devRef .tc main_v1) = W1 m ρ c (Proc.devRef .tc main_v1) :=
  after_two_regions m ρ c main_v1 (by decide) (by decide)
theorem tgt_at_W3 : W3 m ρ c (Proc.devRef .tc main_v3) = W1 m ρ c (Proc.devRef .tc main_v3) :=
  after_two_regions m ρ c main_v3 (by decide) (by decide)
theorem edgeWeight_at_W3 : W3 m ρ c (Proc.devRef .tc main_v31) = W1 m ρ c (Proc.devRef .tc main_v31) :=
  after_two_regions m ρ c main_v31 (by decide) (by decide)
theorem selfWeight_at_W3 : W3 m ρ c (Proc.devRef .tc main_v32) = W1 m ρ c (Proc.devRef .tc main_v32) :=
  after_two_regions m ρ c main_v32 (by decide) (by decide)
theorem b1_at_W3 : W3 m ρ c (Proc.devRef .tc main_arg6) = m ((c : Thread nD τ).loc main_arg6) :=
  (after_two_regions m ρ c main_arg6 (by decide) (by decide)).trans (launched m ρ c main_arg6 (by no_writer))

theorem src_at_W5 : W5 m ρ c (Proc.devRef .tc main_v1) = W1 m ρ c (Proc.devRef .tc main_v1) :=
  after_three_regions m ρ c main_v1 (by decide) (by decide) (by decide) (by no_writer)
theorem tgt_at_W5 : W5 m ρ c (Proc.devRef .tc main_v3) = W1 m ρ c (Proc.devRef .tc main_v3) :=
  after_three_regions m ρ c main_v3 (by decide) (by decide) (by decide) (by no_writer)
theorem edgeWeight_at_W5 : W5 m ρ c (Proc.devRef .tc main_v31) = W1 m ρ c (Proc.devRef .tc main_v31) :=
  after_three_regions m ρ c main_v31 (by decide) (by decide) (by decide) (by no_writer)
theorem selfWeight_at_W5 : W5 m ρ c (Proc.devRef .tc main_v32) = W1 m ρ c (Proc.devRef .tc main_v32) :=
  after_three_regions m ρ c main_v32 (by decide) (by decide) (by decide) (by no_writer)
theorem b2_at_W5 : W5 m ρ c (Proc.devRef .tc main_arg8) = m ((c : Thread nD τ).loc main_arg8) :=
  (after_three_regions m ρ c main_arg8 (by decide) (by decide) (by decide) (by no_writer)).trans
    (launched m ρ c main_arg8 (by no_writer))
theorem edges_at_W5 : W5 m ρ c (Proc.devRef .tc main_arg1) = m ((c : Thread nD τ).loc main_arg1) :=
  (after_three_regions m ρ c main_arg1 (by decide) (by decide) (by decide) (by no_writer)).trans
    (launched m ρ c main_arg1 (by no_writer))

/-- The weights of the three products, where their regions find them. -/
theorem x_at_W1 : W1 m ρ c (Proc.devRef .tc main_arg0) = m ((c : Thread nD τ).loc main_arg0) :=
  launched m ρ c main_arg0 (by no_writer)
theorem wInit_at_W1 : W1 m ρ c (Proc.devRef .tc main_arg3) = m ((c : Thread nD τ).loc main_arg3) :=
  launched m ρ c main_arg3 (by no_writer)
theorem w1_at_W2 : W2 m ρ c (Proc.devRef .tc main_arg5) = m ((c : Thread nD τ).loc main_arg5) :=
  (W2_of_ne m ρ c main_arg5 (by decide)).trans (launched m ρ c main_arg5 (by no_writer))
theorem w2_at_W4 : W4 m ρ c (Proc.devRef .tc main_arg7) = m ((c : Thread nD τ).loc main_arg7) :=
  ((StableHlo.after_of_forall_not_mem _ _ (by no_writer)).trans (after_two_regions m ρ c main_arg7 (by decide) (by decide))).trans
    (launched m ρ c main_arg7 (by no_writer))

/-! ## What the host stretches compute -/

/-- After the first stretch: each positive edge's source node. -/
theorem src_at_W1 : W1 m ρ c (Proc.devRef .tc main_v1) = Cert.Gcn.srcRow (m ((c : Thread nD τ).loc main_arg2)) := by
  show StableHlo.after hostOps0 (W0 m ρ c) (Proc.devRef .tc main_v1) = _
  after_results_simp
  rfl
/-- … its target node. -/
theorem tgt_at_W1 : W1 m ρ c (Proc.devRef .tc main_v3) = Cert.Gcn.tgtRow (m ((c : Thread nD τ).loc main_arg2)) := by
  show StableHlo.after hostOps0 (W0 m ρ c) (Proc.devRef .tc main_v3) = _
  after_results_simp
  rfl
/-- … the edge weights d_src·d_tgt. -/
theorem edgeWeight_at_W1 :
    W1 m ρ c (Proc.devRef .tc main_v31) = Cert.Gcn.edgeWeight (m ((c : Thread nD τ).loc main_arg2)) := by
  show StableHlo.after hostOps0 (W0 m ρ c) (Proc.devRef .tc main_v31) = _
  after_results_simp
  rfl
/-- … the self weights d². -/
theorem selfWeight_at_W1 :
    W1 m ρ c (Proc.devRef .tc main_v32) = Cert.Gcn.selfWeight (m ((c : Thread nD τ).loc main_arg2)) := by
  show StableHlo.after hostOps0 (W0 m ρ c) (Proc.devRef .tc main_v32) = _
  after_results_simp
  rfl
/-- … and the first bias as a one-row matrix. -/
theorem biasRow_at_W1 :
    W1 m ρ c (Proc.devRef .tc main_v33) = shapeCast S1x128 (m ((c : Thread nD τ).loc main_arg4)) shapeCasts_S128_S1x128 := by
  show StableHlo.after hostOps0 (W0 m ρ c) (Proc.devRef .tc main_v33) = _
  after_results_simp
  rfl

/-- The second stretch is one graph convolution of the second region's product. -/
theorem hidden_at_W4 :
    W4 m ρ c (Proc.devRef .tc main_v55)
      = Cert.Gcn.conv128 (W3 m ρ c (Proc.devRef .tc main_v35)) (W3 m ρ c (Proc.devRef .tc main_v1))
          (W3 m ρ c (Proc.devRef .tc main_v3)) (W3 m ρ c (Proc.devRef .tc main_v31)) (W3 m ρ c (Proc.devRef .tc main_v32))
          (W3 m ρ c (Proc.devRef .tc main_arg6)) := by
  show StableHlo.after hostOps2 (W3 m ρ c) (Proc.devRef .tc main_v55) = _
  after_results_simp
  rfl

/-- The last stretch is a graph convolution of the third region's product, then the edges' inner products. -/
theorem scores_at_W6 :
    W6 m ρ c (Proc.devRef .tc main_v96)
      = Cert.Gcn.scores
          (Cert.Gcn.conv64 (W5 m ρ c (Proc.devRef .tc main_v56)) (W5 m ρ c (Proc.devRef .tc main_v1))
            (W5 m ρ c (Proc.devRef .tc main_v3)) (W5 m ρ c (Proc.devRef .tc main_v31)) (W5 m ρ c (Proc.devRef .tc main_v32))
            (W5 m ρ c (Proc.devRef .tc main_arg8)))
          (W5 m ρ c (Proc.devRef .tc main_arg1)) := by
  show StableHlo.after hostOps3 (W5 m ρ c) (Proc.devRef .tc main_v96) = _
  after_results_simp
  rfl

end Cert.KernelIdeal.Between

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«176468_j46153718563498_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.RegionLinear.lean ====
/-
  The first region's output array, whole: the affine map of the three arrays the region finds.

  The region runs over 20 row tiles of 5000 rows. At tile `t` its body reads rows `5000 t … 5000 t + 4999` of the left array
  `x` (100000 × 128), the whole weight array `W` (128 × 128) and the whole bias row `b` (1 × 128), and stores the tile's product
  with the weights plus the bias row laid down every row: entry `(p, q)` of the tile is
  `∑ k, x[5000 t + p, k] · W[k, q] + b[0, q]` — over the extended reals the rounding of the operands to the narrower format is
  the identity and the accumulator is the zero array. That is row tile `t` of `x · W + b` (the product, and `b` broadcast down the
  100000 rows), read entry by entry. Every point writes its tile back, and row `r` of the output lies in the tile of point
  `r / 5000`, so the tiles cover the output array: after the last point it holds `x · W + b`.
-/
import proofs.«176468_j46153718563498_1_alg».proof.Proof.Gen.KernelIdeal.Frame
import proofs.«176468_j46153718563498_1_alg».proof.Proof.LibDotCols
import proofs.«176468_j46153718563498_1_alg».proof.Proof.LibDotColsHost
import Idealize.ShloMosaic.Lib.Pipeline.Value
import Idealize.ShloMosaic.Lib.ValueIdx
import Idealize.ShloMosaic.Lib.ValueLayout
import Idealize.ShloMosaic.Lib.KernelVsHost

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, however they are spelt. -/
theorem linear_zero_offsets : (![0, 0] : Fin 2 → Nat) = fun _ => 0 := funext fun a => by fin_cases a <;> rfl

/-- The index maps over the 20 row tiles, decided: the row-tile windows sit at block `(t, 0)`, the weight and bias windows at
    block `(0, 0)`. -/
theorem linear_index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The whole affine map `x · W + b` of the three arrays as the region finds them: the product, and the bias row laid down
    every row. -/
abbrev linearArray (c : Dev nD) : Vec Ideal S100000x128 .f32 :=
  addf (Host.dotGeneral (F := Ideal) (φ₁ := .f32) (φ₂ := .f32) (DotDims.plain 100000 128 128) none (V c main_arg0) (V c main_arg3))
    (broadcastInDim S100000x128 ![0, 1] bcast_S1x128_S100000x128_0_1 (V c main_v33))

/-- Entry `(r, q)` of the whole affine map of arrays of these shapes is `∑ k, x[r, k] · W[k, q] + b[0, q]`. -/
theorem linear_whole_apply (x : Vec Ideal S100000x128 .f32) (w : Vec Ideal S128x128 .f32) (b : Vec Ideal S1x128 .f32)
    (r : Fin 100000) (q : Fin 128) :
    addf (Host.dotGeneral (F := Ideal) (φ₁ := .f32) (φ₂ := .f32) (DotDims.plain 100000 128 128) none x w)
        (broadcastInDim S100000x128 ![0, 1] bcast_S1x128_S100000x128_0_1 b) (ix2 r q)
      = (∑ k : Fin 128, x (ix2 r k) * w (ix2 k q)) + b (ix2 (0 : Fin 1) q) := by
  rw [addf_apply]
  refine congrArg₂ (fun (u v : EReal) => u + v)
    (Cert.Lib.DotColsHost.dotGeneral_cols_apply (φ₁ := .f32) (φ₂ := .f32) (DotDims.plain 100000 128 128) rfl none .single x w r q)
    (broadcastInDim_oneRow_apply bcast_S1x128_S100000x128_0_1 b r q)

/-- Sums and products of extended reals with equal terms are equal. -/
theorem linear_mul_congr {a a' b b' : EReal} (ha : a = a') (hb : b = b') : a * b = a' * b' := by rw [ha, hb]
theorem linear_add_congr {a a' b b' : EReal} (ha : a = a') (hb : b = b') : a + b = a' + b' := by rw [ha, hb]

/-- A one-row vector laid down the 5000 rows of a tile, read at `(p, q)`, is the row at `(0, q)`. -/
theorem linear_row_apply {α : Type} (v : S1x128.Idx → α) (p : Fin 5000) (q : Fin 128) :
    broadcastTo S5000x128 v broadcasts_S1x128_S5000x128 (ix2 p q) = v (ix2 (0 : Fin 1) q) := by
  refine broadcastTo_apply v broadcasts_S1x128_S5000x128 (ix2 p q) (ix2 (0 : Fin 1) q) ?_
  intro a
  match a with
  | ⟨0, _⟩ => rfl
  | ⟨1, _⟩ =>
    show q.val = if (128 : ℕ) = 1 then 0 else q.val
    rw [if_neg (by decide)]

/-- What the body stores at `(p, q)` of its tile: `∑ k, x[p, k] · W[k, q] + b[0, q]` (the rounding of the operands is the
    identity over the extended reals, the accumulator is zero, the bias row is laid down every row of the tile). -/
theorem linear_payload_apply (x0 : Vec Ideal S5000x128 .f32) (x1 : Vec Ideal S128x128 .f32) (x2 : Vec Ideal S1x128 .f32)
    (p : Fin 5000) (q : Fin 128) :
    k0_pay1 (F := Ideal) x0 x1 x2 (ix2 p q) = (∑ k : Fin 128, x0 (ix2 p k) * x1 (ix2 k q)) + x2 (ix2 (0 : Fin 1) q) := by
  unfold k0_pay1
  refine (addf_apply _ _ (ix2 p q)).trans ?_
  refine linear_add_congr ?_ ?_
  · refine (Cert.Lib.DotCols.matmul_cols_apply dot_S5000x128_S128x128_S5000x128_1_0_0_1_n_n rfl none _ _ p q).trans ?_
    refine Finset.sum_congr rfl fun k _ => ?_
    rw [truncf_apply, truncf_apply]
  · rw [linear_row_apply, shapeCast_self]

/-- Row tile `t` of the left operand holds rows `5000 t … 5000 t + 4999` of its array. -/
theorem linear_left_block (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_arg0 : Vec Ideal S100000x128 .f32) i := by
  obtain ⟨e0, e1, -⟩ := linear_index_maps t
  unfold iblk0
  rw [View.read_apply]
  show V c main_arg0 (((cfg0.win 0).blk t).view.emb y) = V c main_arg0 i
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight window's one block is the whole weight array. -/
theorem linear_right_block (c : Dev nD) (t : Fin cfg0.N) (y : S128x128.Idx) :
    (iblk0 V c 1 t : Vec Ideal S128x128 .f32) y = (V c main_arg3 : Vec Ideal S128x128 .f32) y := by
  obtain ⟨-, -, e2, e3, -⟩ := linear_index_maps t
  unfold iblk0
  rw [View.read_apply]
  show V c main_arg3 (((cfg0.win 1).blk t).view.emb y) = V c main_arg3 y
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- The bias window's one block is the whole bias row. -/
theorem linear_bias_block (c : Dev nD) (t : Fin cfg0.N) (y : S1x128.Idx) :
    (iblk0 V c 2 t : Vec Ideal S1x128 .f32) y = (V c main_v33 : Vec Ideal S1x128 .f32) y := by
  obtain ⟨-, -, -, -, e4, e5, -⟩ := linear_index_maps t
  unfold iblk0
  rw [View.read_apply]
  show V c main_v33 (((cfg0.win 2).blk t).view.emb y) = V c main_v33 y
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

/-- Row tile `t` of an array of the output's shape, read through the output window, is its rows `5000 t … 5000 t + 4999`. -/
theorem linear_out_block (t : Fin cfg0.N) (G : Vec Ideal S100000x128 .f32) (y : S5000x128.Idx) (i : S100000x128.Idx)
    (h0 : (i 0).val = t.val * 5000 + (y 0).val) (h1 : (i 1).val = (y 1).val) :
    (((cfg0.win 3).blk t).view.read (Elt Ideal) G : Vec Ideal S5000x128 .f32) y = G i := by
  obtain ⟨-, -, -, -, -, -, e6, e7⟩ := linear_index_maps t
  rw [View.read_apply]
  show G (((cfg0.win 3).blk t).view.emb y) = G i
  congr 1
  funext a
  apply Fin.ext
  match a with
  | ⟨0, _⟩ => show win0_3.index t (0 : Fin 2) * 5000 + 1 * (y 0).val = (i 0).val; rw [e6, h0]; omega
  | ⟨1, _⟩ => show win0_3.index t (1 : Fin 2) * 128 + 1 * (y 1).val = (i 1).val; rw [e7, h1]; omega

/-- What point `t` writes back is row tile `t` of the whole affine map. -/
theorem linear_flushed (c : Dev nD) (t : Fin cfg0.N) :
    (dat0 (F := Ideal) V c).flushed 3 t = ((cfg0.win 3).blk t).view.read (Elt Ideal) (linearArray V c) := by
  show (cfg0.win 3).cut (grid0.coords t) ((dat0 V c).after 3 t) = _
  rw [after0_3]
  unfold out0_3
  rw [View.canon_unit_zero linear_zero_offsets]
  simp only [View.ld_unit_zero (S := S5000x128) linear_zero_offsets, View.ld_unit_zero (S := S128x128) linear_zero_offsets,
    View.ld_unit_zero (S := S1x128) linear_zero_offsets]
  have ht : t.val < 20 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  refine (linear_payload_apply (iblk0 V c 0 t) (iblk0 V c 1 t) (iblk0 V c 2 t) p q).trans ?_
  refine Eq.trans ?_ (linear_out_block t (linearArray V c) (ix2 p q) (ix2 ⟨t.val * 5000 + p.val, by omega⟩ q) rfl rfl).symm
  refine Eq.trans ?_ (linear_whole_apply (V c main_arg0) (V c main_arg3) (V c main_v33) ⟨t.val * 5000 + p.val, by omega⟩ q).symm
  refine linear_add_congr (Finset.sum_congr rfl fun k _ => ?_) (linear_bias_block V c t (ix2 (0 : Fin 1) q))
  exact linear_mul_congr (linear_left_block V c t (ix2 p k) (ix2 ⟨t.val * 5000 + p.val, by omega⟩ k) rfl rfl)
    (linear_right_block V c t (ix2 k q))

/-- An index of the output array is in point `t`'s block iff each coordinate is in the block's range on its axis. -/
theorem linear_mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v34).slice (win0_3.rect t)).set ↔ _
  rw [View.set_slice_whole, Rect.mem_set_unit]
  exact Iff.rfl

/-- Row `r` of the output lies in the block of point `r / 5000`, and every point writes back: the blocks cover the array. -/
theorem linear_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (show (i 0).val / 5000 < 20 by omega) N_0.symm⟩, rfl⟩
  obtain ⟨-, -, -, -, -, -, e6, e7⟩ := linear_index_maps t
  refine ⟨t, flush0_3 t, ?_⟩
  rw [linear_mem_block]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

/-- THE ARRAY the region leaves in its output: the whole affine map `x · W + b` of the three arrays it found. -/
theorem array_linear (c : Dev nD) :
    (dat0 (F := Ideal) V c).arrAt 3 cfg0.N
      = addf (Host.dotGeneral (F := Ideal) (φ₁ := .f32) (φ₂ := .f32) (DotDims.plain 100000 128 128) none (V c main_arg0) (V c main_arg3))
          (broadcastInDim S100000x128 ![0, 1] bcast_S1x128_S100000x128_0_1 (V c main_v33)) :=
  (dat0 (F := Ideal) V c).arrAt_eq_of_cover 3 (linearArray V c) (fun t _ => linear_flushed V c t) linear_cover

end Cert.KernelIdeal.RegionValue

end
-- ==== Proof.RegionProduct.lean ====
/-
  The middle region's output array, whole: the product of the two arrays the region finds.

  The region runs over 20 row tiles of 5000 rows. At tile `t` its body reads rows `5000 t … 5000 t + 4999` of the left array
  `x` (100000 × 128) and the whole weight array `W` (128 × 128), and stores the tile's product with the weights: entry `(p, q)` of
  the tile is `∑ k, x[5000 t + p, k] · W[k, q]` — over the extended reals the rounding of the operands to the narrower format is
  the identity and the accumulator is the zero array. That is row tile `t` of the whole product `x · W`, read entry by entry. Every
  point writes its tile back, and row `r` of the output lies in the tile of point `r / 5000`, so the tiles cover the output array:
  after the last point it holds `x · W`.
-/
import proofs.«176468_j46153718563498_1_alg».proof.Proof.Gen.KernelIdeal.Frame
import proofs.«176468_j46153718563498_1_alg».proof.Proof.LibDotCols
import proofs.«176468_j46153718563498_1_alg».proof.Proof.LibDotColsHost
import Idealize.ShloMosaic.Lib.Pipeline.Value
import Idealize.ShloMosaic.Lib.ValueIdx
import Idealize.ShloMosaic.Lib.ValueLayout

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, however they are spelt. -/
theorem product_zero_offsets : (![0, 0] : Fin 2 → Nat) = fun _ => 0 := funext fun a => by fin_cases a <;> rfl

/-- The index maps over the 20 row tiles, decided: the row-tile windows sit at block `(t, 0)`, the weight window at block `(0, 0)`. -/
theorem product_index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole product `x · W` of the two arrays as the region finds them. -/
abbrev productArray (c : Dev nD) : Vec Ideal S100000x128 .f32 :=
  Host.dotGeneral (F := Ideal) (φ₁ := .f32) (φ₂ := .f32) (DotDims.plain 100000 128 128) none (V c main_v34) (V c main_arg5)

/-- Entry `(r, q)` of the whole product of two arrays of these shapes is `∑ k, x[r, k] · W[k, q]`. -/
theorem product_whole_apply (x : Vec Ideal S100000x128 .f32) (w : Vec Ideal S128x128 .f32) (r : Fin 100000) (q : Fin 128) :
    Host.dotGeneral (F := Ideal) (φ₁ := .f32) (φ₂ := .f32) (DotDims.plain 100000 128 128) none x w (ix2 r q)
      = ∑ k : Fin 128, x (ix2 r k) * w (ix2 k q) :=
  Cert.Lib.DotColsHost.dotGeneral_cols_apply (φ₁ := .f32) (φ₂ := .f32) (DotDims.plain 100000 128 128) rfl none .single x w r q

/-- Two products of extended reals with equal factors are equal. -/
theorem product_mul_congr {a a' b b' : EReal} (ha : a = a') (hb : b = b') : a * b = a' * b' := by rw [ha, hb]

/-- What the body stores at `(p, q)` of its tile: the product of the tile's rows with the weights, `∑ k, x[p, k] · W[k, q]`
    (the rounding of the operands is the identity over the extended reals, the accumulator is zero). -/
theorem product_payload_apply (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  refine (Cert.Lib.DotCols.matmul_cols_apply dot_S5000x128_S128x128_S5000x128_1_0_0_1_n_n rfl none _ _ p q).trans ?_
  refine Finset.sum_congr rfl fun k _ => ?_
  rw [truncf_apply, truncf_apply, shapeCast_self]

/-- Row tile `t` of the left operand holds rows `5000 t … 5000 t + 4999` of its array. -/
theorem product_left_block (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v34 : Vec Ideal S100000x128 .f32) i := by
  obtain ⟨e0, e1, -⟩ := product_index_maps t
  unfold iblk1
  rw [View.read_apply]
  show V c main_v34 (((cfg1.win 0).blk t).view.emb y) = V c main_v34 i
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The weight window's one block is the whole weight array. -/
theorem product_right_block (c : Dev nD) (t : Fin cfg1.N) (y : S128x128.Idx) :
    (iblk1 V c 1 t : Vec Ideal S128x128 .f32) y = (V c main_arg5 : Vec Ideal S128x128 .f32) y := by
  obtain ⟨-, -, e2, e3, -⟩ := product_index_maps t
  unfold iblk1
  rw [View.read_apply]
  show V c main_arg5 (((cfg1.win 1).blk t).view.emb y) = V c main_arg5 y
  congr 1
  funext a
  apply Fin.ext
  match a with
  | ⟨0, _⟩ => show win1_1.index t (0 : Fin 2) * 128 + 1 * (y 0).val = (y 0).val; rw [e2]; omega
  | ⟨1, _⟩ => show win1_1.index t (1 : Fin 2) * 128 + 1 * (y 1).val = (y 1).val; rw [e3]; omega

/-- Row tile `t` of an array of the output's shape, read through the output window, is its rows `5000 t … 5000 t + 4999`. -/
theorem product_out_block (t : Fin cfg1.N) (G : Vec Ideal S100000x128 .f32) (y : S5000x128.Idx) (i : S100000x128.Idx)
    (h0 : (i 0).val = t.val * 5000 + (y 0).val) (h1 : (i 1).val = (y 1).val) :
    (((cfg1.win 2).blk t).view.read (Elt Ideal) G : Vec Ideal S5000x128 .f32) y = G i := by
  obtain ⟨-, -, -, -, e4, e5⟩ := product_index_maps t
  rw [View.read_apply]
  show G (((cfg1.win 2).blk t).view.emb y) = G i
  congr 1
  funext a
  apply Fin.ext
  match a with
  | ⟨0, _⟩ => show win1_2.index t (0 : Fin 2) * 5000 + 1 * (y 0).val = (i 0).val; rw [e4, h0]; omega
  | ⟨1, _⟩ => show win1_2.index t (1 : Fin 2) * 128 + 1 * (y 1).val = (i 1).val; rw [e5, h1]; omega

/-- What point `t` writes back is row tile `t` of the whole product. -/
theorem product_flushed (c : Dev nD) (t : Fin cfg1.N) :
    (dat1 (F := Ideal) V c).flushed 2 t = ((cfg1.win 2).blk t).view.read (Elt Ideal) (productArray V c) := by
  show (cfg1.win 2).cut (grid1.coords t) ((dat1 V c).after 2 t) = _
  rw [after1_2]
  unfold out1_2
  rw [View.canon_unit_zero product_zero_offsets]
  simp only [View.ld_unit_zero (S := S5000x128) product_zero_offsets, View.ld_unit_zero (S := S128x128) product_zero_offsets]
  have ht : t.val < 20 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  refine (product_payload_apply (iblk1 V c 0 t) (iblk1 V c 1 t) p q).trans ?_
  refine Eq.trans ?_ (product_out_block t (productArray V c) (ix2 p q) (ix2 ⟨t.val * 5000 + p.val, by omega⟩ q) rfl rfl).symm
  refine Eq.trans ?_ (product_whole_apply (V c main_v34) (V c main_arg5) ⟨t.val * 5000 + p.val, by omega⟩ q).symm
  refine Finset.sum_congr rfl fun k _ => ?_
  exact product_mul_congr (product_left_block V c t (ix2 p k) (ix2 ⟨t.val * 5000 + p.val, by omega⟩ k) rfl rfl)
    (product_right_block V c t (ix2 k q))

/-- An index of the output array is in point `t`'s block iff each coordinate is in the block's range on its axis. -/
theorem product_mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v35).slice (win1_2.rect t)).set ↔ _
  rw [View.set_slice_whole, Rect.mem_set_unit]
  exact Iff.rfl

/-- Row `r` of the output lies in the block of point `r / 5000`, and every point writes back: the blocks cover the array. -/
theorem product_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, lt_of_lt_of_eq (show (i 0).val / 5000 < 20 by omega) N_1.symm⟩, rfl⟩
  obtain ⟨-, -, -, -, e4, e5⟩ := product_index_maps t
  refine ⟨t, flush1_2 t, ?_⟩
  rw [product_mem_block]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 128 ≤ (i 1).val ∧ (i 1).val < win1_2.index t (1 : Fin 2) * 128 + 128; rw [e5]; omega

/-- THE ARRAY the region leaves in its output: the whole product `x · W` of the two arrays it found. -/
theorem array_product (c : Dev nD) :
    (dat1 (F := Ideal) V c).arrAt 2 cfg1.N
      = Host.dotGeneral (F := Ideal) (φ₁ := .f32) (φ₂ := .f32) (DotDims.plain 100000 128 128) none (V c main_v34) (V c main_arg5) :=
  (dat1 (F := Ideal) V c).arrAt_eq_of_cover 2 (productArray V c) (fun t _ => product_flushed V c t) product_cover

end Cert.KernelIdeal.RegionValue

end
-- ==== Proof.RegionReluProduct.lean ====
/-
  The last region's output array, whole: the product of the rectified left array with the weights.

  The region runs over 20 row tiles of 5000 rows. At tile `t` its body reads rows `5000 t … 5000 t + 4999` of the left array
  `x` (100000 × 128) and the whole weight array `W` (128 × 64), takes the maximum of each entry of the tile with zero, and stores
  the product of the result with the weights: entry `(p, q)` of the tile is `∑ k, max(x[5000 t + p, k], 0) · W[k, q]` — over the
  extended reals the rounding of the operands to the narrower format is the identity and the accumulator is the zero array. That is
  row tile `t` of the whole product `max(x, 0) · W` (the zero array there a broadcast scalar constant, the same zero), read entry by
  entry. Every point writes its tile back, and row `r` of the output lies in the tile of point `r / 5000`, so the tiles cover the
  output array: after the last point it holds `max(x, 0) · W`.
-/
import proofs.«176468_j46153718563498_1_alg».proof.Proof.Gen.KernelIdeal.Frame
import proofs.«176468_j46153718563498_1_alg».proof.Proof.LibDotCols
import proofs.«176468_j46153718563498_1_alg».proof.Proof.LibDotColsHost
import Idealize.ShloMosaic.Lib.Pipeline.Value
import Idealize.ShloMosaic.Lib.ValueIdx
import Idealize.ShloMosaic.Lib.ValueLayout
import Idealize.ShloMosaic.Lib.KernelVsHost

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, however they are spelt. -/
theorem relu_zero_offsets : (![0, 0] : Fin 2 → Nat) = fun _ => 0 := funext fun a => by fin_cases a <;> rfl

/-- The index maps over the 20 row tiles, decided: the row-tile windows sit at block `(t, 0)`, the weight window at block `(0, 0)`. -/
theorem relu_index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The whole product `max(x, 0) · W` of the two arrays as the region finds them, the zero array a broadcast constant. -/
abbrev reluProductArray (c : Dev nD) : Vec Ideal S100000x64 .f32 :=
  Host.dotGeneral (F := Ideal) (φ₁ := .f32) (φ₂ := .f32) (DotDims.plain 100000 128 64) none
    (maximumf (φ := .f32) (V c main_v55) (broadcastInDim S100000x128 ![] bcast_S_S100000x128 (constant (F := Ideal) S_ .f32 0x00000000#32)))
    (V c main_arg7)

/-- Entry `(r, q)` of that product of arrays of these shapes is `∑ k, max(x[r, k], 0) · W[k, q]`. -/
theorem relu_whole_apply (x : Vec Ideal S100000x128 .f32) (w : Vec Ideal S128x64 .f32) (r : Fin 100000) (q : Fin 64) :
    Host.dotGeneral (F := Ideal) (φ₁ := .f32) (φ₂ := .f32) (DotDims.plain 100000 128 64) none
        (maximumf (φ := .f32) x (broadcastInDim S100000x128 ![] bcast_S_S100000x128 (constant (F := Ideal) S_ .f32 0x00000000#32))) w (ix2 r q)
      = ∑ k : Fin 128, max (x (ix2 r k)) (Scalar.ofBits (F := Ideal) .f32 0x00000000#32) * w (ix2 k q) := by
  refine (Cert.Lib.DotColsHost.dotGeneral_cols_apply (φ₁ := .f32) (φ₂ := .f32) (DotDims.plain 100000 128 64) rfl none .single _ w r q).trans ?_
  refine Finset.sum_congr rfl fun k _ => ?_
  rw [maximumf_apply, broadcastInDim_constant, broadcast_apply]

/-- Products of extended reals with equal factors are equal; so are maxima against one bound. -/
theorem relu_mul_congr {a a' b b' : EReal} (ha : a = a') (hb : b = b') : a * b = a' * b' := by rw [ha, hb]
theorem relu_max_congr {a a' z : EReal} (ha : a = a') : max a z = max a' z := by rw [ha]

/-- What the body stores at `(p, q)` of its tile: `∑ k, max(x[p, k], 0) · W[k, q]` (the rounding of the operands is the identity
    over the extended reals, the accumulator is zero, the zero the maximum is taken against is a splat constant). -/
theorem relu_payload_apply (x0 : Vec Ideal S5000x128 .f32) (x1 : Vec Ideal S128x64 .f32) (p : Fin 5000) (q : Fin 64) :
    k2_pay1 (F := Ideal) x0 x1 (ix2 p q)
      = ∑ k : Fin 128, max (x0 (ix2 p k)) (Scalar.ofBits (F := Ideal) .f32 0x00000000#32) * x1 (ix2 k q) := by
  unfold k2_pay1
  refine (Cert.Lib.DotCols.matmul_cols_apply dot_S5000x128_S128x64_S5000x64_1_0_0_1_n_n rfl none _ _ p q).trans ?_
  refine Finset.sum_congr rfl fun k _ => ?_
  rw [truncf_apply, truncf_apply, maximumf_apply, shapeCast_self, broadcast_apply]

/-- Row tile `t` of the left operand holds rows `5000 t … 5000 t + 4999` of its array. -/
theorem relu_left_block (c : Dev nD) (t : Fin cfg2.N) (y : S5000x128.Idx) (i : S100000x128.Idx)
    (h0 : (i 0).val = t.val * 5000 + (y 0).val) (h1 : (i 1).val = (y 1).val) :
    (iblk2 V c 0 t : Vec Ideal S5000x128 .f32) y = (V c main_v55 : Vec Ideal S100000x128 .f32) i := by
  obtain ⟨e0, e1, -⟩ := relu_index_maps t
  unfold iblk2
  rw [View.read_apply]
  show V c main_v55 (((cfg2.win 0).blk t).view.emb y) = V c main_v55 i
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The weight window's one block is the whole weight array. -/
theorem relu_right_block (c : Dev nD) (t : Fin cfg2.N) (y : S128x64.Idx) :
    (iblk2 V c 1 t : Vec Ideal S128x64 .f32) y = (V c main_arg7 : Vec Ideal S128x64 .f32) y := by
  obtain ⟨-, -, e2, e3, -⟩ := relu_index_maps t
  unfold iblk2
  rw [View.read_apply]
  show V c main_arg7 (((cfg2.win 1).blk t).view.emb y) = V c main_arg7 y
  congr 1
  funext a
  apply Fin.ext
  match a with
  | ⟨0, _⟩ => show win2_1.index t (0 : Fin 2) * 128 + 1 * (y 0).val = (y 0).val; rw [e2]; omega
  | ⟨1, _⟩ => show win2_1.index t (1 : Fin 2) * 64 + 1 * (y 1).val = (y 1).val; rw [e3]; omega

/-- Row tile `t` of an array of the output's shape, read through the output window, is its rows `5000 t … 5000 t + 4999`. -/
theorem relu_out_block (t : Fin cfg2.N) (G : Vec Ideal S100000x64 .f32) (y : S5000x64.Idx) (i : S100000x64.Idx)
    (h0 : (i 0).val = t.val * 5000 + (y 0).val) (h1 : (i 1).val = (y 1).val) :
    (((cfg2.win 2).blk t).view.read (Elt Ideal) G : Vec Ideal S5000x64 .f32) y = G i := by
  obtain ⟨-, -, -, -, e4, e5⟩ := relu_index_maps t
  rw [View.read_apply]
  show G (((cfg2.win 2).blk t).view.emb y) = G i
  congr 1
  funext a
  apply Fin.ext
  match a with
  | ⟨0, _⟩ => show win2_2.index t (0 : Fin 2) * 5000 + 1 * (y 0).val = (i 0).val; rw [e4, h0]; omega
  | ⟨1, _⟩ => show win2_2.index t (1 : Fin 2) * 64 + 1 * (y 1).val = (i 1).val; rw [e5, h1]; omega

/-- What point `t` writes back is row tile `t` of the whole product. -/
theorem relu_flushed (c : Dev nD) (t : Fin cfg2.N) :
    (dat2 (F := Ideal) V c).flushed 2 t = ((cfg2.win 2).blk t).view.read (Elt Ideal) (reluProductArray V c) := by
  show (cfg2.win 2).cut (grid2.coords t) ((dat2 V c).after 2 t) = _
  rw [after2_2]
  unfold out2_2
  rw [View.canon_unit_zero relu_zero_offsets]
  simp only [View.ld_unit_zero (S := S5000x128) relu_zero_offsets, View.ld_unit_zero (S := S128x64) relu_zero_offsets]
  have ht : t.val < 20 := lt_of_lt_of_eq t.isLt N_2
  funext j
  obtain ⟨p, q, rfl⟩ : ∃ (p : Fin 5000) (q : Fin 64), j = ix2 p q := ⟨j 0, j 1, eq_ix2 j⟩
  have hp : p.val < 5000 := p.isLt
  refine (relu_payload_apply (iblk2 V c 0 t) (iblk2 V c 1 t) p q).trans ?_
  refine Eq.trans ?_ (relu_out_block t (reluProductArray V c) (ix2 p q) (ix2 ⟨t.val * 5000 + p.val, by omega⟩ q) rfl rfl).symm
  refine Eq.trans ?_ (relu_whole_apply (V c main_v55) (V c main_arg7) ⟨t.val * 5000 + p.val, by omega⟩ q).symm
  refine Finset.sum_congr rfl fun k _ => ?_
  exact relu_mul_congr (relu_max_congr (relu_left_block V c t (ix2 p k) (ix2 ⟨t.val * 5000 + p.val, by omega⟩ k) rfl rfl))
    (relu_right_block V c t (ix2 k q))

/-- An index of the output array is in point `t`'s block iff each coordinate is in the block's range on its axis. -/
theorem relu_mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v56).slice (win2_2.rect t)).set ↔ _
  rw [View.set_slice_whole, Rect.mem_set_unit]
  exact Iff.rfl

/-- Row `r` of the output lies in the block of point `r / 5000`, and every point writes back: the blocks cover the array. -/
theorem relu_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, lt_of_lt_of_eq (show (i 0).val / 5000 < 20 by omega) N_2.symm⟩, rfl⟩
  obtain ⟨-, -, -, -, e4, e5⟩ := relu_index_maps t
  refine ⟨t, flush2_2 t, ?_⟩
  rw [relu_mem_block]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 64 ≤ (i 1).val ∧ (i 1).val < win2_2.index t (1 : Fin 2) * 64 + 64; rw [e5]; omega

/-- THE ARRAY the region leaves in its output: the whole product `max(x, 0) · W` of the two arrays it found. -/
theorem array_relu_product (c : Dev nD) :
    (dat2 (F := Ideal) V c).arrAt 2 cfg2.N
      = Host.dotGeneral (F := Ideal) (φ₁ := .f32) (φ₂ := .f32) (DotDims.plain 100000 128 64) none
          (maximumf (φ := .f32) (V c main_v55) (broadcastInDim S100000x128 ![] bcast_S_S100000x128 (constant (F := Ideal) S_ .f32 0x00000000#32)))
          (V c main_arg7) :=
  (dat2 (F := Ideal) V c).arrAt_eq_of_cover 2 (reluProductArray V c) (fun t _ => relu_flushed V c t) relu_cover

end Cert.KernelIdeal.RegionValue

end
-- ==== Proof.KernelIsNetwork.lean ====
/-
  The kernel computes the network.

  The returned array is followed back through the program's boundaries. The last host stretch makes it the edge scores of a
  graph convolution of the third region's array; that array is the product max(h1, 0)·W2 of what the region found, and what it
  found is the second stretch's convolution of the second region's array h0·W1, whose left factor is the first region's dense
  layer x·W_init + b_init of the launch contents. The edge rows and the two weight vectors were computed once, before the first
  region, and nothing since has written them; the weights W1, W2 and the biases are arguments nothing writes at all. Put together
  the returned array is the one `network` of the nine arguments. Two spellings are reconciled on the way: the first bias reaches
  its region reshaped to one row, which is the same one-row matrix the reference makes by laying the vector along axis 1, and
  the products are stated over the plain dimension numbers, which the reference's printed records spell.
-/
import proofs.«176468_j46153718563498_1_alg».proof.Proof.KernelBetween
import proofs.«176468_j46153718563498_1_alg».proof.Proof.RegionLinear
import proofs.«176468_j46153718563498_1_alg».proof.Proof.RegionProduct
import proofs.«176468_j46153718563498_1_alg».proof.Proof.RegionReluProduct
import Idealize.ShloMosaic.Lib.Pipeline.Value
import Idealize.ShloMosaic.PureOps.Ideal.Laws

set_option maxRecDepth 16384

noncomputable section

namespace Cert.KernelIdeal.Whole

open Cert.KernelIdeal Cert.KernelIdeal.Gen Cert.KernelIdeal.Between
open Idealize.ShloMosaic Idealize.ShloMosaic.TcCoe Idealize.SL.Sem

/-- A vector of 128 entries reshaped to one row is the vector laid along axis 1 of a one-row matrix: both read entry t at
    (0, t). -/
theorem row_of_vector {α : Type} (x : S128.Idx → α) :
    shapeCast S1x128 x shapeCasts_S128_S1x128 = broadcastInDim S1x128 ![1] bcast_S128_S1x128_1 x := by
  funext j
  rw [shapeCast_addUnit_apply ![128] x shapeCasts_S128_S1x128 j]
  refine (broadcastInDim_apply ![1] bcast_S128_S1x128_1 x j (fun a => j a.succ) fun a => ?_).symm
  match a with
  | ⟨0, _⟩ => rfl

/-- The two printed dimension-number records of the reference's products are the plain ones. -/
theorem plain128 : Cert.ReferenceIdeal.dot_S100000x128_S128x128_S100000x128_1_0_0_1_n_n = DotDims.plain 100000 128 128 := rfl
theorem plain64 : Cert.ReferenceIdeal.dot_S100000x128_S128x64_S100000x64_1_0_0_1_n_n = DotDims.plain 100000 128 64 := rfl

variable (m : (ℓ : Loc nD τ sig) → Buf (Elt Ideal) ℓ) (ρ : Dev nD → PrngReg) (c : Dev nD)

/-- The first region's array: the dense layer of the node array. -/
theorem dense_at_W2 :
    W2 m ρ c (Proc.devRef .tc main_v34)
      = Cert.Gcn.dense (m ((c : Thread nD τ).loc main_arg0)) (m ((c : Thread nD τ).loc main_arg3))
          (m ((c : Thread nD τ).loc main_arg4)) := by
  refine ((W2_arr m ρ c 3).trans (Cert.KernelIdeal.RegionValue.array_linear (V1 m ρ) c)).trans ?_
  show addf (Host.dotGeneral (F := Ideal) (φ₁ := .f32) (φ₂ := .f32) (DotDims.plain 100000 128 128) none (W1 m ρ c (Proc.devRef .tc main_arg0))
      (W1 m ρ c (Proc.devRef .tc main_arg3)))
      (broadcastInDim S100000x128 ![0, 1] bcast_S1x128_S100000x128_0_1 (W1 m ρ c (Proc.devRef .tc main_v33))) = _
  rw [x_at_W1, wInit_at_W1, biasRow_at_W1, row_of_vector]
  unfold Cert.Gcn.dense
  rw [plain128]

/-- The second region's array: that layer times W1. -/
theorem product1_at_W3 :
    W3 m ρ c (Proc.devRef .tc main_v35)
      = Host.dotGeneral (F := Ideal) (φ₁ := .f32) (φ₂ := .f32) (DotDims.plain 100000 128 128) none
          (Cert.Gcn.dense (m ((c : Thread nD τ).loc main_arg0)) (m ((c : Thread nD τ).loc main_arg3))
            (m ((c : Thread nD τ).loc main_arg4)))
          (m ((c : Thread nD τ).loc main_arg5)) := by
  refine ((W3_arr m ρ c 2).trans (Cert.KernelIdeal.RegionValue.array_product (V2 m ρ) c)).trans ?_
  show Host.dotGeneral (F := Ideal) (φ₁ := .f32) (φ₂ := .f32) (DotDims.plain 100000 128 128) none (W2 m ρ c (Proc.devRef .tc main_v34))
      (W2 m ρ c (Proc.devRef .tc main_arg5)) = _
  rw [dense_at_W2, w1_at_W2]

/-- The second stretch's result: the first hidden layer. -/
theorem hidden1_at_W4 :
    W4 m ρ c (Proc.devRef .tc main_v55)
      = Cert.Gcn.hidden1
          (Host.dotGeneral (F := Ideal) (φ₁ := .f32) (φ₂ := .f32) (DotDims.plain 100000 128 128) none
            (Cert.Gcn.dense (m ((c : Thread nD τ).loc main_arg0)) (m ((c : Thread nD τ).loc main_arg3))
              (m ((c : Thread nD τ).loc main_arg4)))
            (m ((c : Thread nD τ).loc main_arg5)))
          (m ((c : Thread nD τ).loc main_arg2)) (m ((c : Thread nD τ).loc main_arg6)) := by
  rw [hidden_at_W4, product1_at_W3, src_at_W3, tgt_at_W3, edgeWeight_at_W3, selfWeight_at_W3, b1_at_W3,
    src_at_W1, tgt_at_W1, edgeWeight_at_W1, selfWeight_at_W1]
  rfl

/-- The third region's array: max(h1, 0) times W2. -/
theorem product2_at_W5 :
    W5 m ρ c (Proc.devRef .tc main_v56)
      = Host.dotGeneral (F := Ideal) (φ₁ := .f32) (φ₂ := .f32) (DotDims.plain 100000 128 64) none
          (Cert.Gcn.relu (Cert.Gcn.hidden1
            (Host.dotGeneral (F := Ideal) (φ₁ := .f32) (φ₂ := .f32) (DotDims.plain 100000 128 128) none
              (Cert.Gcn.dense (m ((c : Thread nD τ).loc main_arg0)) (m ((c : Thread nD τ).loc main_arg3))
                (m ((c : Thread nD τ).loc main_arg4)))
              (m ((c : Thread nD τ).loc main_arg5)))
            (m ((c : Thread nD τ).loc main_arg2)) (m ((c : Thread nD τ).loc main_arg6))))
          (m ((c : Thread nD τ).loc main_arg7)) := by
  refine ((W5_arr m ρ c 2).trans (Cert.KernelIdeal.RegionValue.array_relu_product (V4 m ρ) c)).trans ?_
  show Host.dotGeneral (F := Ideal) (φ₁ := .f32) (φ₂ := .f32) (DotDims.plain 100000 128 64) none
      (maximumf (W4 m ρ c (Proc.devRef .tc main_v55))
        (broadcastInDim S100000x128 ![] bcast_S_S100000x128 (constant (F := Ideal) S_ .f32 0x00000000#32)))
      (W4 m ρ c (Proc.devRef .tc main_arg7)) = _
  rw [hidden1_at_W4, w2_at_W4]
  rfl

/-- THE KERNEL COMPUTES THE NETWORK: the returned array, at the last boundary, is the network of the launch contents of the
    nine arguments. -/
theorem scores_are_network :
    W6 m ρ c (Proc.devRef .tc main_v96)
      = Cert.Gcn.network (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) := by
  rw [scores_at_W6, product2_at_W5, src_at_W5, tgt_at_W5, edgeWeight_at_W5, selfWeight_at_W5, b2_at_W5, edges_at_W5,
    src_at_W1, tgt_at_W1, edgeWeight_at_W1, selfWeight_at_W1]
  unfold Cert.Gcn.network Cert.Gcn.scoresOf
  rw [plain128, plain64]

end Cert.KernelIdeal.Whole

end
-- ==== Proof.RefIsNetwork.lean ====
/-
  The reference computes the network.

  The reference's program is a straight line of host operations; its run leaves the result at the operations' composed term of
  the nine arguments. That term is the network's, operation for operation: the reference spells the degree normalisation once per
  convolution, and both spellings are the one `invSqrtDeg` of the positive edges. Nothing is evaluated — the two terms coincide
  once the network's pieces are opened.
-/
import proofs.«176468_j46153718563498_1_alg».proof.Proof.Spec
import proofs.«176468_j46153718563498_1_alg».proof.Proof.Gen.ReferenceIdeal.Run

noncomputable section

namespace Cert.Gcn

open Idealize.ShloMosaic Idealize.ShloMosaic.TcCoe Idealize.SL.Sem Cert.ReferenceIdeal Cert.ReferenceIdeal.Gen

variable {F : FTy → Type} [FloatOps F]

set_option maxRecDepth 8192 in
/-- The reference's result term is the network of its argument arrays. -/
theorem reference_term (m : (ℓ : Loc nD τ sig) → Buf (Elt F) ℓ) (c : Dev nD) :
    Cert.ReferenceIdeal.Value.res_main_v128 m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.Value.res_main_v128 network scoresOf hidden1 scores endpoint conv64 conv128 relu dense edgeWeight
    selfWeight invSqrtDeg wrapNodes srcRow tgtRow
  rfl

end Cert.Gcn

end
-- ==== Proof.lean ====
/-
  A two-layer graph convolution with edge scoring, its three dense products done as row-tiled kernels, against the plain
  reference program: both compute one network of the nine arguments.

  The kernel's program is host operations around three tiled regions. Each region's output array is, entry by entry, the
  matrix product of its whole input arrays — the tiles are row blocks of one product, rounding to bf16 is the identity on
  the extended reals, and a product accumulated into zero is the host's product — with the bias row added in the first and
  max(·, 0) taken first in the third. Everything else (degrees, the d^(-1/2) weights, gathers along the edges, the
  scatter-sums, the final inner products) the two programs spell with the same host operations, so it is never opened: the
  kernel's contents are followed from boundary to boundary and the reference's run is read as one term, and the two terms are
  the same `network`. No law of arithmetic is used beyond the products' index bookkeeping, so the inputs' finiteness is never
  needed. The ideal pass rewrote nothing, so there is nothing to preserve.
-/
import proofs.«176468_j46153718563498_1_alg».proof.Defs
import proofs.«176468_j46153718563498_1_alg».proof.Proof.Gen.Kernel
import proofs.«176468_j46153718563498_1_alg».proof.Proof.Gen.Kernel.Frame
import proofs.«176468_j46153718563498_1_alg».proof.Proof.Gen.KernelIdeal
import proofs.«176468_j46153718563498_1_alg».proof.Proof.Gen.KernelIdeal.Frame
import proofs.«176468_j46153718563498_1_alg».proof.Proof.Gen.ReferenceIdeal
import proofs.«176468_j46153718563498_1_alg».proof.Proof.Gen.ReferenceIdeal.Run
import proofs.«176468_j46153718563498_1_alg».proof.Proof.Gen.Pre_finite_inputs
import proofs.«176468_j46153718563498_1_alg».proof.Proof.KernelRun
import proofs.«176468_j46153718563498_1_alg».proof.Proof.KernelIsNetwork
import proofs.«176468_j46153718563498_1_alg».proof.Proof.RefIsNetwork
import Idealize.ShloMosaic.Adequacy
import Idealize.ShloMosaic.Init

noncomputable section

namespace Cert.Proof

open Idealize.ShloMosaic Idealize.SL.Sem

/-- The kernel as printed runs and leaves its arguments alone. -/
theorem frame_kernel : @Cert.frame_Kernel Cert.Kernel.Gen.facts Cert.Pre_finite_inputs.Gen.facts :=
  fun m ρ _ => Cert.Kernel.Gen.frame m ρ

/-- So does its idealization. -/
theorem frame_kernel_ideal : @Cert.frame_KernelIdeal Cert.KernelIdeal.Gen.facts Cert.Pre_finite_inputs.Gen.facts :=
  fun m ρ _ => Cert.KernelIdeal.Gen.frame m ρ

/-- The reference is a straight line of host operations: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- On the extended reals both programs end with the network of the (agreeing) arguments in their result array. -/
theorem algebraic :
    @Cert.algebraic_KernelIdeal_ReferenceIdeal Cert.KernelIdeal.Gen.facts Cert.ReferenceIdeal.Gen.facts
      Cert.Pre_finite_inputs.Gen.facts := by
  intro m ρ m' ρ' _ hagree
  refine ⟨fun c => Cert.Gcn.network (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Whole.scores_are_network m ρ c), (h c).2⟩)
      (Cert.KernelIdeal.Whole.run_scores (F := Ideal) m ρ)
  · refine (θ_run Cert.ReferenceIdeal.defs _ _).mono (fun r h c => ⟨(h c).1.trans ?_, (h c).2⟩)
      (Cert.ReferenceIdeal.Value.run (F := Ideal) m' ρ')
    rw [Cert.Gcn.reference_term m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
